-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S8192x64 : Shape := ⟨2, ![8192, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S16384x64 .f32) (main_arg1 : FVec F S8192x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S16384x64 : Shape := ⟨2, ![16384, 64]⟩
abbrev S8192x64 : Shape := ⟨2, ![8192, 64]⟩
abbrev S16384x8192 : Shape := ⟨2, ![16384, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S64x1024 : Shape := ⟨2, ![64, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x64, .f32⟩
  | .hbm, ⟨1, _⟩ => ⟨S8192x64, .f32⟩
  | .hbm, ⟨2, _⟩ => ⟨S16384x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  transposes_S1024x64_p1_0_S64x1024 : S1024x64.Transposes [1, 0] S64x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S16384x64.size a
  hwx0_0 : ∀ i : grid0.Coords, EltTy.bits .f32 = 32 ∨ (Rect.block (s := S16384x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x8192.size a
  hwx0_2 : ∀ i : grid0.Coords, EltTy.bits .f32 = 32 ∨ (Rect.block (s := S16384x8192) S1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x64 : Shape := ⟨2, ![16384, 64]⟩
abbrev S8192x64 : Shape := ⟨2, ![8192, 64]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩

abbrev nBuf : Space → Nat
  | .hbm => 21
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S8192x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S_, .f32⟩
  | .hbm, ⟨15, _⟩ => ⟨S16384x8192, .f32⟩
  | .hbm, ⟨16, _⟩ => ⟨S16384x8192, .f32⟩
  | .hbm, ⟨17, _⟩ => ⟨S16384x8192, .f32⟩
  | .hbm, ⟨18, _⟩ => ⟨S_, .f32⟩
  | .hbm, ⟨19, _⟩ => ⟨S16384x8192, .f32⟩
  | .hbm, ⟨20, _⟩ => ⟨S16384x8192, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S8192x64_S8192_d1 : S8192x64.ReducesTo [1] S8192
  bcast_S8192_S1x8192_1 : S8192.BroadcastsInDim S1x8192 (![1] : Fin 1 → Fin S1x8192.rank)
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  bcast_S_S16384x8192 : S_.BroadcastsInDim S16384x8192 (![] : Fin 0 → Fin S16384x8192.rank)
  dot_S16384x64_S8192x64_S16384x8192_1_1_0_0_n_n_wf : DotDims.WF S16384x64 S8192x64 S16384x8192 [1] [1] [0] [0] [] []

variable [Facts₀]

def dot_S16384x64_S8192x64_S16384x8192_1_1_0_0_n_n : DotDims S16384x64 S8192x64 S16384x8192 where
  lhsContracting := [1]
  rhsContracting := [1]
  lhsNonContracting := [0]
  rhsNonContracting := [0]
  lhsBatch := []
  rhsBatch := []
  wf := dot_S16384x64_S8192x64_S16384x8192_1_1_0_0_n_n_wf

class Facts : Prop extends Facts₀ where

variable [Facts]
-- ==== Proof.SqDistSpec.lean ====
/-
  The function both programs compute: the matrix of pairwise squared Euclidean distances between 16384 query rows and
  8192 source rows of 64 coordinates each, in the expanded form |a|² + |b|² − 2·⟨a, b⟩, clamped below at zero.

  Stated once over the extended reals and over literal shapes, with no program in sight. An entry depends on one query
  row and one source row only (`entry`); the whole matrix (`pairDist`) reads the rows named by the entry's two coordinates.
  The three sums run over the same 64 coordinates, the sum of the two squared norms is formed first and twice the inner
  product is subtracted from it, in that order: subtraction on the extended reals does not re-associate at the
  infinities, and nothing here asks it to.
-/
import Idealize.ShloMosaic.PureOps.Ideal
import Idealize.ShloMosaic.Lib.ValueIdx

noncomputable section

open scoped BigOperators

namespace Cert.SqDist

open Idealize.ShloMosaic Idealize.ShloMosaic.ValueIdx

/-- The squared distance between a row `a` and a row `b`, each given by its 64 coordinates:
    `max (|a|² + |b|² − 2·⟨a, b⟩) 0`. The factor is the f32 word of `2.0`, kept as its word: both programs carry the
    same word, so its value is never needed. -/
def entry (a b : Fin 64 → EReal) : EReal :=
  max (((∑ k : Fin 64, a k * a k) + ∑ k : Fin 64, b k * b k)
        - Ideal.ofBits .f32 0x40000000#32 * ∑ k : Fin 64, a k * b k) 0

/-- The matrix of squared distances: entry `(r, c)` is `entry` of query row `r` and source row `c`. -/
def pairDist (q : (⟨2, ![16384, 64]⟩ : Shape).Idx → EReal) (s : (⟨2, ![8192, 64]⟩ : Shape).Idx → EReal) :
    (⟨2, ![16384, 8192]⟩ : Shape).Idx → EReal :=
  fun i => entry (fun k => q (ix2 (i 0 : Fin 16384) k)) (fun k => s (ix2 (i 1 : Fin 8192) k))

/-- `pairDist` at an index given by its coordinates. -/
theorem pairDist_ix2 (q : (⟨2, ![16384, 64]⟩ : Shape).Idx → EReal) (s : (⟨2, ![8192, 64]⟩ : Shape).Idx → EReal)
    (r : Fin 16384) (c : Fin 8192) :
    pairDist q s (ix2 r c) = entry (fun k => q (ix2 r k)) (fun k => s (ix2 c k)) := rfl

end Cert.SqDist

end
-- ==== Proof.LibReadAt.lean ====
/-
  Layout operations, a lane sum and a plain matrix product read at an index given by coordinates, at the extended reals:
  a reshape that merges or splits the two leading axes (row-major: row g·a + i), a vector viewed as a column, a matrix
  under two leading unit axes, a per-row scalar broadcast over a stack of matrices, the sum along the lanes of a matrix,
  and an m×k by k×n product into a zero accumulator.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReadAt

open Idealize.ShloMosaic Idealize.ShloMosaic.ValueIdx

variable {α : Type}

/-! ## Shape casts that merge or split the two leading axes (row-major: row `g * a + i`) -/

/-- A `[G, a, b]` array cast to `[R, b]` (R = G·a) reads, at row `r = g·a + i` and column `j`, the operand at `(g, i, j)`. -/
theorem shapeCast_gab_rb_apply {G a b R : ℕ} (x : (⟨3, ![G, a, b]⟩ : Shape).Idx → α)
    (h : (⟨3, ![G, a, b]⟩ : Shape).ShapeCasts ⟨2, ![R, b]⟩) (g : Fin G) (i : Fin a) (j : Fin b) (r : Fin R)
    (hr : r.val = g.val * a + i.val) :
    shapeCast ⟨2, ![R, b]⟩ x h (ix2 r j) = x (ix3 g i j) :=
  shapeCast_apply x h _ _ (by
    rw [Shape.rowMajor_val_three, Shape.rowMajor_val_two]
    show (g.val * a + i.val) * b + j.val = r.val * b + j.val
    rw [hr])

/-- An `[R, b]` array cast to `[G, a, b]` (R = G·a) reads, at `(g, i, j)`, the operand at row `r = g·a + i`, column `j`. -/
theorem shapeCast_rb_gab_apply {G a b R : ℕ} (x : (⟨2, ![R, b]⟩ : Shape).Idx → α)
    (h : (⟨2, ![R, b]⟩ : Shape).ShapeCasts ⟨3, ![G, a, b]⟩) (g : Fin G) (i : Fin a) (j : Fin b) (r : Fin R)
    (hr : r.val = g.val * a + i.val) :
    shapeCast ⟨3, ![G, a, b]⟩ x h (ix3 g i j) = x (ix2 r j) :=
  shapeCast_apply x h _ _ (by
    rw [Shape.rowMajor_val_three, Shape.rowMajor_val_two]
    show r.val * b + j.val = (g.val * a + i.val) * b + j.val
    rw [hr])

/-! ## The keepdims column forms -/

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu', Nat.zero_mul, Nat.zero_add])

/-! ## A per-row scalar `[a, 1, 1]` broadcast over `[a, b, c]` -/

theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-! ## A sum along the lanes of a matrix -/

/-- The index a one-axis reduction of a matrix along axis 1 inserts the coordinate into. -/
theorem lift_axis1 {a b : ℕ} (h : (⟨2, ![a, b]⟩ : Shape).Reduces [1] ⟨1, ![a]⟩) (r : Fin a) (k : Fin b) :
    h.lift (ix1 r) k = ix2 r k := by
  funext ax; apply Fin.ext
  match ax with
  | ⟨0, _⟩ => rfl
  | ⟨1, _⟩ => rfl

/-- A `vector.multi_reduction <add>` of an `[a, b]` vector along axis 1, at row `r`, is the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-! ## A plain matrix product into the zero accumulator -/

/-- `[m, k] × [k, n]` into the zero splat, at `(i, j)`: the sum over the contracted coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (i : Fin m) (j : Fin n) :
    matmul (DotDims.plain m k n) prec A B (constant ⟨2, ![m, n]⟩ .f32 0x00000000#32) (ix2 i j)
      = ∑ c : Fin k, A (ix2 i c) * B (ix2 c j) := by
  show FloatOps.matmul _ prec A B _ (ix2 i j) = _
  rw [Ideal.matmul_constant_zero_apply, ← Equiv.sum_comp (contrEquiv1 (DotDims.plain m k n) k rfl rfl).symm]
  refine Finset.sum_congr rfl fun c _ => ?_
  have c2 := contrEquiv1_symm_val (DotDims.plain m k n) k rfl rfl c
  have l2 : (DotDims.plain m k n).lhsIdx (ix2 i j) ((contrEquiv1 _ k rfl rfl).symm c) = ix2 i c := by
    funext ax; apply Fin.ext
    match ax with
    | ⟨0, _⟩ => simp [DotDims.lhsIdx, DotDims.plain]; rfl
    | ⟨1, _⟩ => simp [DotDims.lhsIdx, DotDims.plain]; exact c2
  have r2 : (DotDims.plain m k n).rhsIdx (ix2 i j) ((contrEquiv1 _ k rfl rfl).symm c) = ix2 c j := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.ReadAt

end
-- ==== Proof.LibColumnBroadcast.lean ====
/-
  A column broadcast along the lanes, read at an index.

  A `[a, 1]` array broadcast to `[a, b]` holds, in every lane of row `p`, the column's entry of row `p`. Shape-generic
  in `a` and `b` and in the element type; the companion of the library's one-row form (`[1, b]` to `[a, b]`).
-/
import Idealize.ShloMosaic.Lib.Pipeline.Value
import Idealize.ShloMosaic.Lib.ValueIdx

namespace Cert.LibColumnBroadcast

open Idealize.ShloMosaic Idealize.ShloMosaic.ValueIdx

/-- A column `[a, 1]` broadcast along the lanes to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.BlockEntry.lean ====
/-
  One entry of the block the kernel body stores.

  The body loads a block `x` of 1024 query rows and a block `y` of 1024 source rows and stores one 1024 × 1024 value.
  Read at `(p, c)` that value is built from three sums over the 64 coordinates:
  • the squares of row `p` of `x`, summed along the lanes, viewed as a column and spread along the lanes;
  • the squares of row `c` of `y`, summed along the lanes, viewed as a column, transposed to a row and spread over the rows;
  • the matrix product of `x` with the transpose of `y` into a zero accumulator — a change of float format being the
    identity on extended reals —, which at `(p, c)` contracts row `p` of `x` with row `c` of `y`.
  So the entry is `entry` of row `p` of `x` and row `c` of `y`.
-/
import proofs.«163648_j14181982011477_1_alg».proof.Proof.Gen.KernelIdeal.Skeleton
import proofs.«163648_j14181982011477_1_alg».proof.Proof.SqDistSpec
import proofs.«163648_j14181982011477_1_alg».proof.Proof.LibReadAt
import proofs.«163648_j14181982011477_1_alg».proof.Proof.LibColumnBroadcast
import Idealize.ShloMosaic.Lib.ValueLayout
import Idealize.ShloMosaic.PureOps.Ideal.Laws

noncomputable section

open scoped BigOperators

namespace Cert.KernelIdeal.BlockEntry

open Cert.KernelIdeal Cert.KernelIdeal.Gen
open Idealize.ShloMosaic Idealize.ShloMosaic.ValueIdx Cert.SqDist

/-- The squared norm of row `p` of a block, as the body forms it for the rows of its result: summed along the lanes,
    viewed as a column, spread along the lanes. Every lane `c` of row `p` holds it. -/
theorem rowNorm_apply (x : FVec Ideal S1024x64 .f32) (p c : Fin 1024) :
    broadcastTo S1024x1024
        (shapeCast S1024x1 (multiReduction (F := Ideal) .add [1] S1024 (mulf x x) 0x00000000#32 reduces_S1024x64_S1024 (.inl rfl) rfl)
          shapeCasts_S1024_S1024x1)
        broadcasts_S1024x1_S1024x1024 (ix2 p c)
      = ∑ k : Fin 64, x (ix2 p k) * x (ix2 p k) := by
  rw [Cert.LibColumnBroadcast.broadcastTo_column_apply, Cert.ReadAt.shapeCast_a_a1_apply]
  exact Cert.ReadAt.laneSum_apply (mulf x x) 0x00000000#32 reduces_S1024x64_S1024 (.inl rfl) rfl p

/-- The squared norm of row `c` of a block, as the body forms it for the columns of its result: summed along the lanes,
    viewed as a column, transposed to a row, spread over the rows. Every row `p` of column `c` holds it. -/
theorem colNorm_apply (y : FVec Ideal S1024x64 .f32) (p c : Fin 1024) :
    broadcastTo S1024x1024
        (transpose S1x1024 [1, 0]
          (shapeCast S1024x1 (multiReduction (F := Ideal) .add [1] S1024 (mulf y y) 0x00000000#32 reduces_S1024x64_S1024 (.inl rfl) rfl)
            shapeCasts_S1024_S1024x1)
          transposes_S1024x1_p1_0_S1x1024)
        broadcasts_S1x1024_S1024x1024 (ix2 p c)
      = ∑ k : Fin 64, y (ix2 c k) * y (ix2 c k) := by
  rw [broadcastTo_1b_ab_apply, transpose_ix2_apply, Cert.ReadAt.shapeCast_a_a1_apply]
  exact Cert.ReadAt.laneSum_apply (mulf y y) 0x00000000#32 reduces_S1024x64_S1024 (.inl rfl) rfl c

/-- The body's dimension numbers are those of a plain matrix product, rows by contraction times contraction by columns. -/
theorem dot_plain : dot_S1024x64_S64x1024_S1024x1024_1_0_0_1_n_n = DotDims.plain 1024 64 1024 := rfl

/-- The cross term: the product of `x` with the transpose of `y` into a zero accumulator, at `(p, c)`, contracts row
    `p` of `x` with row `c` of `y`. The narrowing of both operands is the identity on extended reals. -/
theorem cross_apply (x y : FVec Ideal S1024x64 .f32) (p c : Fin 1024) :
    matmul (F := Ideal) dot_S1024x64_S64x1024_S1024x1024_1_0_0_1_n_n none (truncf .bf16 x bitsLt_bf16_f32)
        (transpose S64x1024 [1, 0] (truncf .bf16 y bitsLt_bf16_f32) transposes_S1024x64_p1_0_S64x1024)
        (constant S1024x1024 .f32 0x00000000#32) (ix2 p c)
      = ∑ k : Fin 64, x (ix2 p k) * y (ix2 c k) := by
  rw [dot_plain, Cert.ReadAt.matmul_plain_zero_apply]
  refine Finset.sum_congr rfl fun k _ => ?_
  rw [transpose_ix2_apply]
  rfl

/-- THE ENTRY: what the body stores at `(p, c)` is `entry` of row `p` of the query block and row `c` of the source block. -/
theorem pay_apply (x y : FVec Ideal S1024x64 .f32) (p c : Fin 1024) :
    k0_pay1 (F := Ideal) x y (ix2 p c) = entry (fun k => x (ix2 p k)) (fun k => y (ix2 c k)) := by
  unfold k0_pay1
  rw [maximumf_apply, subf_apply, addf_apply, mulf_apply, rowNorm_apply, colNorm_apply, cross_apply, broadcast_apply,
    broadcast_apply]
  show max (_ - Ideal.ofBits .f32 0x40000000#32 * _) (Ideal.ofBits .f32 0x00000000#32) = _
  rw [Ideal.ofBits_zero_f32]
  rfl

end Cert.KernelIdeal.BlockEntry

end
-- ==== Proof.KernelIsDist.lean ====
/-
  The kernel computes `pairDist`.

  The grid has 16 × 8 points. Point `t` stages block `a` of the query rows and block `b` of the source rows, where
  `(a, b)` is the block index of the 1024 × 1024 output block it writes back: rows `1024·a … 1024·a + 1023` of the
  queries, rows `1024·b … 1024·b + 1023` of the sources, all 64 coordinates of each. Entry `(p, c)` of the stored block is
  `entry` of row `p` of the one and row `c` of the other, that is, `pairDist` at array index `(1024·a + p, 1024·b + c)`:
  what a point writes back is its block of `pairDist`. The 128 output blocks tile the 16384 × 8192 array — the point
  covering `(r, c)` is the one with block index `(r / 1024, c / 1024)` —, so after the run the array is `pairDist` of the
  argument arrays.
-/
import proofs.«163648_j14181982011477_1_alg».proof.Proof.Gen.KernelIdeal.Value
import proofs.«163648_j14181982011477_1_alg».proof.Proof.BlockEntry
import Idealize.ShloMosaic.Lib.Pipeline.Value

noncomputable section

namespace Cert.KernelIdeal.DistValue

open Cert.KernelIdeal Cert.KernelIdeal.Gen Cert.KernelIdeal.Value
open Idealize.ShloMosaic Idealize.ShloMosaic.TcCoe Idealize.SL.Sem Idealize.ShloMosaic.ValueIdx Cert.SqDist
open Idealize.ShloMosaic.Pipeline (Dat)

variable (m : (ℓ : Loc nD τ sig) → Buf (Elt Ideal) ℓ) (ρ : Dev nD → PrngReg)

/-- The body's loads and its store go through the whole staging buffers: zero offsets. -/
theorem zero_offsets : (![0, 0] : Fin 2 → Nat) = fun _ => 0 := funext fun a => by fin_cases a <;> rfl

/-- The three index maps, decided over the grid: the query block moves with the output block's row index, the source
    block with its column index, and neither input is cut along the 64 coordinates. -/
theorem block_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

/-- Every one of the 16 × 8 output blocks is some point's. -/
theorem block_onto : ∀ (a : Fin 16) (b : Fin 8), ∃ t : Fin cfg0.N, win0_2.index t = ![a.val, b.val] :=
  (by decide +kernel : ∀ (a : Fin 16) (b : Fin 8), ∃ t : Fin grid0.N, win0_2.index t = ![a.val, b.val])

/-- Row `p` of the query block at point `t` is the query row that row `p` of the output block lies in. -/
theorem qblock_row (c : Dev nD) (t : Fin cfg0.N) (p q : Fin 1024) (k : Fin 64) :
    (iblk m c 0 t : S1024x64.Idx → EReal) (ix2 p k)
      = (V m c main_arg0 : S16384x64.Idx → EReal) (ix2 ((((cfg0.win 2).blk t).view.emb (ix2 p q)) 0 : Fin 16384) k) := by
  obtain ⟨e0, e1, -, -⟩ := block_indices t
  show (V m c main_arg0 : S16384x64.Idx → EReal) (((cfg0.win 0).blk t).view.emb (ix2 p k)) = _
  refine congrArg (V m c main_arg0 : S16384x64.Idx → EReal) (funext fun a => Fin.ext ?_)
  match a with
  | ⟨0, _⟩ => show win0_0.index t (0 : Fin 2) * 1024 + 1 * p.val = win0_2.index t (0 : Fin 2) * 1024 + 1 * p.val; omega
  | ⟨1, _⟩ => show win0_0.index t (1 : Fin 2) * 64 + 1 * k.val = k.val; omega

/-- Row `q` of the source block at point `t` is the source row that column `q` of the output block lies in. -/
theorem sblock_row (c : Dev nD) (t : Fin cfg0.N) (p q : Fin 1024) (k : Fin 64) :
    (iblk m c 1 t : S1024x64.Idx → EReal) (ix2 q k)
      = (V m c main_arg1 : S8192x64.Idx → EReal) (ix2 ((((cfg0.win 2).blk t).view.emb (ix2 p q)) 1 : Fin 8192) k) := by
  obtain ⟨-, -, e2, e3⟩ := block_indices t
  show (V m c main_arg1 : S8192x64.Idx → EReal) (((cfg0.win 1).blk t).view.emb (ix2 q k)) = _
  refine congrArg (V m c main_arg1 : S8192x64.Idx → EReal) (funext fun a => Fin.ext ?_)
  match a with
  | ⟨0, _⟩ => show win0_1.index t (0 : Fin 2) * 1024 + 1 * q.val = win0_2.index t (1 : Fin 2) * 1024 + 1 * q.val; omega
  | ⟨1, _⟩ => show win0_1.index t (1 : Fin 2) * 64 + 1 * k.val = k.val; omega

/-- WHAT POINT `t` WRITES BACK is its block of `pairDist` of the argument arrays as the region finds them. -/
theorem flushed_eq (c : Dev nD) (t : Fin cfg0.N) :
    (dats m 0 c).flushed 2 t = ((cfg0.win 2).blk t).view.read (Elt Ideal)
      (pairDist (V m c main_arg0 : S16384x64.Idx → EReal) (V m c main_arg1 : S8192x64.Idx → EReal)) := by
  rw [Value.flushed2]
  unfold out0_2
  rw [View.canon_unit_zero zero_offsets]
  simp only [View.ld_unit_zero (S := S1024x64) zero_offsets]
  funext j
  obtain ⟨p, q, rfl⟩ : ∃ (p : Fin 1024) (q : Fin 1024), j = ix2 p q := ⟨j 0, j 1, eq_ix2 j⟩
  show k0_pay1 (F := Ideal) (iblk m c 0 t) (iblk m c 1 t) (ix2 p q)
    = pairDist (V m c main_arg0 : S16384x64.Idx → EReal) (V m c main_arg1 : S8192x64.Idx → EReal) (((cfg0.win 2).blk t).view.emb (ix2 p q))
  refine (BlockEntry.pay_apply (iblk m c 0 t) (iblk m c 1 t) p q).trans ?_
  unfold pairDist
  congr 1
  · funext k; exact qblock_row m c t p q k
  · funext k; exact sblock_row m c t p q k

/-- An index of the array is in point `t`'s output block iff each coordinate is in the block's range on its axis. -/
theorem mem_block (t : Fin cfg0.N) (i : S16384x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- The output blocks cover the array: `(r, c)` is in the block with index `(r / 1024, c / 1024)`. -/
theorem covered (i : S16384x8192.Idx) :
    ∃ t : Fin cfg0.N, (cfg0.win 2).flush t = true ∧ i ∈ ((cfg0.win 2).blk t).view.set := by
  have hi0 : (i 0).val < 16384 := (i 0).isLt
  have hi1 : (i 1).val < 8192 := (i 1).isLt
  obtain ⟨t, ht⟩ := block_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE ARRAY after the run is `pairDist` of the two argument arrays. -/
theorem final (c : Dev nD) :
    (dats m 0 c).arrAt 2 cfg0.N
      = pairDist (m ((c : Thread nD τ).loc main_arg0) : S16384x64.Idx → EReal) (m ((c : Thread nD τ).loc main_arg1) : S8192x64.Idx → EReal) :=
  (dats m 0 c).arrAt_eq_of_cover 2 _ (fun t _ => flushed_eq m c t) covered

/-- The kernel's run, read: the result array at `pairDist` of the argument arrays, the arguments unchanged. -/
theorem run : θ_run defs (onTc (τ := τ) (main (F := Ideal))) ⟨m, fun _ => 0, ρ⟩ fun r => ∀ c : Dev nD,
      r.2.mem ((c : Thread nD τ).loc main_v0)
        = pairDist (m ((c : Thread nD τ).loc main_arg0) : S16384x64.Idx → EReal) (m ((c : Thread nD τ).loc main_arg1) : S8192x64.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.DistValue

end
-- ==== Proof.RefIsDist.lean ====
/-
  The reference computes `pairDist`.

  Read one operation at a time, the reference's result at `(r, c)` is: the sum over a query row's squares (started from
  the zero word) broadcast along the lanes, plus the sum over a source row's squares broadcast along the rows, minus the
  splat of the word of `2.0` times the contraction of the two rows, clamped by a splat of the zero word. The two zero
  words are the extended real `0`, and `0 + x = x` on every extended real; what is left is `entry` of the two rows,
  term for term.
-/
import proofs.«163648_j14181982011477_1_alg».proof.Proof.Gen.ReferenceIdeal.Read
import proofs.«163648_j14181982011477_1_alg».proof.Proof.SqDistSpec
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Cert.SqDist

/-- The query row an entry's squared norm sums over: row `i 0`. -/
theorem qrow_norm (i : S16384x8192.Idx) (k : Fin 64) :
    idx_main_v1 (idx_main_v2 (idx_main_v7 i)) k = ix2 (i 0 : Fin 16384) k :=
  funext fun a => Fin.ext (by match a with | ⟨0, _⟩ => rfl | ⟨1, _⟩ => rfl)

/-- The source row an entry's squared norm sums over: row `i 1`. -/
theorem srow_norm (i : S16384x8192.Idx) (k : Fin 64) :
    idx_main_v4 (idx_main_v5 (idx_main_v8 i)) k = ix2 (i 1 : Fin 8192) k :=
  funext fun a => Fin.ext (by match a with | ⟨0, _⟩ => rfl | ⟨1, _⟩ => rfl)

/-- The contraction's left factor is the same query row … -/
theorem qrow_dot (i : S16384x8192.Idx) (k : Fin 64) : lidx_main_v6 i k = ix2 (i 0 : Fin 16384) k :=
  funext fun a => Fin.ext (by match a with | ⟨0, _⟩ => rfl | ⟨1, _⟩ => rfl)

/-- … and its right factor the same source row. -/
theorem srow_dot (i : S16384x8192.Idx) (k : Fin 64) : ridx_main_v6 i k = ix2 (i 1 : Fin 8192) k :=
  funext fun a => Fin.ext (by match a with | ⟨0, _⟩ => rfl | ⟨1, _⟩ => rfl)

/-- The reference's last stage, as a function of the two argument arrays, is `pairDist`. -/
theorem result_eq (x0 : (⟨S16384x64, .f32⟩ : BufTy).Contents (Elt Ideal)) (x1 : (⟨S8192x64, .f32⟩ : BufTy).Contents (Elt Ideal)) :
    val_main_v14 (F := Ideal) x0 x1 = pairDist x0 x1 := by
  funext i
  rw [val_main_v14_apply, val_main_v12_apply, val_main_v9_apply, val_main_v7_apply, val_main_v2_apply, val_main_v1_apply,
    val_main_v8_apply, val_main_v5_apply, val_main_v4_apply, val_main_v11_apply, val_main_v10_apply, val_main_v6_apply,
    val_main_v13_apply]
  simp only [val_main_v0_apply, val_main_v3_apply, val_main_cst_apply, val_main_cst_0_apply, val_main_cst_1_apply,
    val_main_cst_2_apply, qrow_norm, srow_norm, qrow_dot, srow_dot, Ideal.ofBits_def, Ideal.mulf_def, Ideal.addf_def,
    Ideal.subf_def, Ideal.maximumf_def, Ideal.ofBits_zero_f32, zero_add]
  rfl

end Cert.ReferenceIdeal.RefValue

end
-- ==== Proof.lean ====
/-
  Pairwise squared Euclidean distances, tiled: the kernel and its reference compute one function.

  Both programs form, for 16384 query rows and 8192 source rows of 64 coordinates, the matrix
  `max (|q_r|² + |s_c|² − 2·⟨q_r, s_c⟩) 0`. The reference does it on whole arrays: two row-wise sums of squares, one
  broadcast along the lanes and one along the rows, one contraction of the two arrays over the coordinate axis, then the
  combination and the clamp. The kernel does it on a 16 × 8 grid of 1024 × 1024 output blocks: at each point it loads
  1024 query rows and 1024 source rows, sums their squares along the lanes, lays the source norms out as a row by a
  transpose, multiplies the query block by the transposed source block (after a narrowing of both, the identity on
  extended reals) and combines the three exactly as the reference does.

  Over the extended reals the two are the same expression tree at every entry — the same three sums over the same 64
  coordinates, added, subtracted and clamped in the same order, with the same words for `2.0` and `0.0` — so no
  algebraic law beyond `0 + x = x` (the sums' zero start) is used and the finiteness of the inputs is never opened.
  `SqDistSpec` states the function; `RefIsDist` reads the reference's stages down to it; `BlockEntry` reads one entry of
  the kernel's stored block; `KernelIsDist` places the blocks in the array and shows they tile it.

  The three frames are the generated ones (the reference's is its generated run with the result dropped). The kernel's
  idealization rewrote no operation, so there is nothing for `preserves` to state.
-/
import proofs.«163648_j14181982011477_1_alg».proof.Defs
import proofs.«163648_j14181982011477_1_alg».proof.Proof.Gen.Kernel
import proofs.«163648_j14181982011477_1_alg».proof.Proof.Gen.Kernel.Skeleton
import proofs.«163648_j14181982011477_1_alg».proof.Proof.Gen.Kernel.Launch
import proofs.«163648_j14181982011477_1_alg».proof.Proof.Gen.Kernel.Points
import proofs.«163648_j14181982011477_1_alg».proof.Proof.Gen.Kernel.Frame
import proofs.«163648_j14181982011477_1_alg».proof.Proof.Gen.KernelIdeal
import proofs.«163648_j14181982011477_1_alg».proof.Proof.Gen.KernelIdeal.Skeleton
import proofs.«163648_j14181982011477_1_alg».proof.Proof.Gen.KernelIdeal.Launch
import proofs.«163648_j14181982011477_1_alg».proof.Proof.Gen.KernelIdeal.Points
import proofs.«163648_j14181982011477_1_alg».proof.Proof.Gen.KernelIdeal.Frame
import proofs.«163648_j14181982011477_1_alg».proof.Proof.Gen.ReferenceIdeal
import proofs.«163648_j14181982011477_1_alg».proof.Proof.Gen.Pre_finite_inputs
import proofs.«163648_j14181982011477_1_alg».proof.Proof.Gen.KernelIdeal.Value
import proofs.«163648_j14181982011477_1_alg».proof.Proof.Gen.ReferenceIdeal.Run
import proofs.«163648_j14181982011477_1_alg».proof.Proof.Gen.ReferenceIdeal.Read
import proofs.«163648_j14181982011477_1_alg».proof.Proof.KernelIsDist
import proofs.«163648_j14181982011477_1_alg».proof.Proof.RefIsDist
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: it runs, and no operation writes an argument. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the queries and the sources, both programs end with the matrix of squared distances
    `pairDist` of those two arrays: the kernel block by block, the reference stage by stage. -/
theorem algebraic : Cert.algebraic_KernelIdeal_ReferenceIdeal := by
  intro m ρ m' ρ' _ hagree
  refine ⟨_, Cert.KernelIdeal.DistValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
